-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096x1 .f32) (main_arg3 : FVec F S4096x1 .f32) (main_arg4 : FVec F S1x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096x1 : Shape := ⟨2, ![4096, 1]⟩
abbrev S1x4096 : Shape := ⟨2, ![1, 4096]⟩
abbrev S16384x4096 : Shape := ⟨2, ![16384, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x1, .f32⟩
  | .hbm, ⟨3, _⟩ => ⟨S4096x1, .f32⟩
  | .hbm, ⟨4, _⟩ => ⟨S1x4096, .f32⟩
  | .hbm, ⟨5, _⟩ => ⟨S16384x4096, .f32⟩
  | .hbm, ⟨6, _⟩ => ⟨S16384x4096, .bf16⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S1x4096, .f32⟩
  | .hbm, ⟨11, _⟩ => ⟨S16384x4096, .f32⟩
  | .hbm, ⟨12, _⟩ => ⟨S8x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8x2048x4096_S16384x4096 : S8x2048x4096.ShapeCasts S16384x4096
  bitsLt_bf16_f32 : FTy.bits .bf16 < FTy.bits .f32
  bcast_S4096x1_S4096x4096_0_1 : S4096x1.BroadcastsInDim S4096x4096 (![0, 1] : Fin 2 → Fin S4096x4096.rank)
  shapeCasts_S4096x1_S1x4096 : S4096x1.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .bf16 = 32 ∨ (Rect.block (s := S16384x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x1, .f32⟩
  | .hbm, ⟨3, _⟩ => ⟨S4096x1, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8x2048x4096, .f32⟩
  | .hbm, ⟨10, _⟩ => ⟨S1x1x4096, .f32⟩
  | .hbm, ⟨11, _⟩ => ⟨S8x2048x4096, .f32⟩
  | .hbm, ⟨12, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S1x4096_S1x1x4096_1_2 : S1x4096.BroadcastsInDim S1x1x4096 (![1, 2] : Fin 2 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one grid point leaves behind, case by case, as the body's own arithmetic.

  The kernel body is run once per control case.  At the first contraction block of an output tile it stores a
  zero tile in the accumulator, reads it back, and stores `zero + x·wᵀ`; at a later block it stores
  `previous + x·wᵀ`; at the last block it additionally reads the accumulator back and stores
  `accumulator · scale + bias` in the output tile.  Every store covers its whole tile, so what the tile holds
  afterwards is just the last payload stored, with each load replaced by the tile contents it read.
-/
import proofs.«166770_j40303973105954_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- The offset of every access in the body: the tile's origin. -/
theorem hz : (![0, 0] : Fin 2 → Nat) = fun _ => 0 := funext fun a => by fin_cases a <;> rfl

/-- First contraction block: the accumulator ends at `zero + x·wᵀ` (the zero tile stored, read back, added to). -/
theorem scratch_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .bf16) (x1 : Vec F S1024x512 .bf16) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- A middle contraction block: the accumulator ends at `previous + x·wᵀ`. -/
theorem scratch_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .bf16) (x1 : Vec F S1024x512 .bf16) (x2 : Vec F S1x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x1024) hz]
  simp only [View.readAt_eq_ld, harg3.read_unread, harg4.read_unread, harg8.read_unread,
    View.ld_unit_zero (S := S1024x512) hz, View.ld_unit_zero (S := S1024x1024) hz]

/-- The last contraction block: the accumulator ends at `previous + x·wᵀ` … -/
theorem scratch_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .bf16) (x1 : Vec F S1024x512 .bf16) (x2 : Vec F S1x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 xs0 x0 x1 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) hz]
  simp only [View.readAt_eq_ld, harg3.read_unread, harg4.read_unread, harg8.read_unread,
    View.ld_unit_zero (S := S1024x512) hz, View.ld_unit_zero (S := S1024x1024) hz]

/-- … and the output tile at `accumulator · scale + bias` of that accumulator. -/
theorem out_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .bf16) (x1 : Vec F S1024x512 .bf16) (x2 : Vec F S1x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 xs0 x0 x1) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg6.read_unread, harg8.read_unread,
    View.ld_unit_zero (S := S1024x512) hz, View.ld_unit_zero (S := S1024x1024) hz, View.ld_unit_zero (S := S1x1024) hz]

end Cert.KernelIdeal.Pieces

end
-- ==== Proof.PayAt.lean ====
/-
  The body's three payloads read at one element of a tile, over the extended reals.

  At row `p` and column `q` of a 1024 × 1024 tile: the reset payload is `0`; the accumulation payload is the
  accumulator's element plus the inner product of row `p` of the activation tile with row `q` of the weight tile
  (the matrix product contracts the second axis of both operands, into a zero accumulator); the final payload is
  the accumulator's element times the scale row at `q` plus the bias row at `q` (both rows broadcast down the tile).
-/
import proofs.«166770_j40303973105954_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.PayAt

open Cert.KernelIdeal Cert.KernelIdeal.Gen Cert.KernelIdeal.Facts₀

/-- The reset tile is zero everywhere. -/
theorem pay1_apply (j : S1024x1024.Idx) : k0_pay1 (F := Ideal) j = 0 := by
  unfold k0_pay1
  rw [shapeCast_self]
  exact Ideal.ofBits_zero_f32

/-! The operand indices of the tile product at output element `(p, q)` and contraction position `k`:
    `(p, k)` on the left, `(q, k)` on the right. -/

theorem lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The tile product into a zero accumulator, at `(p, q)`: the inner product of row `p` of the left tile and row `q`
    of the right tile. -/
theorem tile_product_apply (l r : FVec Ideal S1024x512 .bf16) (p q : Fin 1024) :
    matmul dot_S1024x512_S1024x512_S1024x1024_1_1_0_0_n_n none l r (constant S1024x1024 .f32 0x00000000#32) (ix2 p q)
      = ∑ k : Fin 512, l (ix2 p k) * r (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_0 _ _
    | ⟨1, _⟩ => exact (rhs_1 _ _).trans hk)
  rw [el, er]

/-- The accumulation payload at `(p, q)`. -/
theorem pay2_apply (acc : Vec Ideal S1024x1024 .f32) (x w : Vec Ideal S1024x512 .bf16) (p q : Fin 1024) :
    k0_pay2 (F := Ideal) acc x w (ix2 p q) = acc (ix2 p q) + ∑ k : Fin 512, x (ix2 p k) * w (ix2 q k) := by
  unfold k0_pay2
  rw [shapeCast_self, shapeCast_self, shapeCast_self]
  exact congrArg (acc (ix2 p q) + ·) (tile_product_apply x w p q)

/-- A `1 × 1024` row broadcast down a `1024 × 1024` tile, at `(p, q)`: the row at `q`. -/
theorem row_broadcast_apply (v : FVec Ideal S1x1024 .f32) (h : S1x1024.Broadcasts S1024x1024) (p q : Fin 1024) :
    broadcastTo S1024x1024 v h (ix2 p q) = v (ix2 0 q) :=
  broadcastTo_apply v h (ix2 p q) (ix2 0 q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- The final payload at `(p, q)`. -/
theorem pay3_apply (acc : Vec Ideal S1024x1024 .f32) (s b : Vec Ideal S1x1024 .f32) (p q : Fin 1024) :
    k0_pay3 (F := Ideal) acc s b (ix2 p q) = acc (ix2 p q) * s (ix2 0 q) + b (ix2 0 q) := by
  unfold k0_pay3
  rw [shapeCast_self]
  show acc (ix2 p q) * broadcastTo S1024x1024 s Facts₀.broadcasts_S1x1024_S1024x1024 (ix2 p q)
      + broadcastTo S1024x1024 b Facts₀.broadcasts_S1x1024_S1024x1024 (ix2 p q) = _
  rw [row_broadcast_apply, row_broadcast_apply]

end Cert.KernelIdeal.PayAt

end
-- ==== Proof.Entry.lean ====
/-
  The arrays the kernel launch finds, as functions of the program's arguments, element by element.

  Before the launch the host flattens the activations `x[b, s, k]` to rows `r = 2048·b + s`, subtracts each
  output row's zero point from its weights, and lays the scale column out as a row; the two changes of float
  format are the identity on extended reals.  So the launch finds
      X[r, k]  = x[r / 2048, r % 2048, k]
      D[o, k]  = w[o, k] − zp[o, 0]
      S[0, o]  = scales[o, 0]
  and the bias row as given.
-/
import proofs.«166770_j40303973105954_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.StableHlo Idealize.ShloMosaic.ValueIdx

namespace Cert.KernelIdeal.Entry

open Cert.KernelIdeal Cert.KernelIdeal.Gen

variable (m : (ℓ : Loc nD τ sig) → Buf (Elt Ideal) ℓ)

/-- The program's five arguments on a device, as arrays of extended reals. -/
abbrev argX (c : Dev nD) : FVec Ideal S8x2048x4096 .f32 := m ((c.tc : Thread nD τ).loc main_arg0)
abbrev argW (c : Dev nD) : FVec Ideal S4096x4096 .f32 := m ((c.tc : Thread nD τ).loc main_arg1)
abbrev argS (c : Dev nD) : FVec Ideal S4096x1 .f32 := m ((c.tc : Thread nD τ).loc main_arg2)
abbrev argZ (c : Dev nD) : FVec Ideal S4096x1 .f32 := m ((c.tc : Thread nD τ).loc main_arg3)
abbrev argB (c : Dev nD) : FVec Ideal S1x4096 .f32 := m ((c.tc : Thread nD τ).loc main_arg4)

/-- The four arrays the launch's windows read, as the launch finds them. -/
abbrev entX (c : Dev nD) : FVec Ideal S16384x4096 .bf16 := V m c main_v1
abbrev entD (c : Dev nD) : FVec Ideal S4096x4096 .bf16 := V m c main_v4
abbrev entS (c : Dev nD) : FVec Ideal S1x4096 .f32 := V m c main_v5
abbrev entB (c : Dev nD) : FVec Ideal S1x4096 .f32 := V m c main_arg4

/-- The flattened activations: row `r` of the launch's array is row `r % 2048` of batch `r / 2048`. -/
theorem x_entry (c : Dev nD) (r : Fin 16384) (k : Fin 4096) :
    entX m c (ix2 r k)
      = argX m c (ix3 ⟨r.val / 2048, by have := r.isLt; omega⟩ ⟨r.val % 2048, Nat.mod_lt _ (by decide)⟩ k) := by
  have e : entX m c = truncf (F := Ideal) .bf16 (shapeCast S16384x4096 (argX m c)
      Facts₀.shapeCasts_S8x2048x4096_S16384x4096) Facts₀.bitsLt_bf16_f32 := by
    show StableHlo.after hostOps0 (fun b => m (c, b)) (Proc.devRef .tc main_v1) = _
    after_results
    rfl
  rw [e]
  show shapeCast S16384x4096 (argX m c) Facts₀.shapeCasts_S8x2048x4096_S16384x4096 (ix2 r k) = _
  refine shapeCast_apply (s := S8x2048x4096) (t := S16384x4096) _ _ _ _ ?_
  rw [Shape.rowMajor_val_three, Shape.rowMajor_val_two]
  show (r.val / 2048 * 2048 + r.val % 2048) * 4096 + k.val = r.val * 4096 + k.val
  have := Nat.div_add_mod' r.val 2048
  omega

/-- The shifted weights: each output row's weights minus that row's zero point. -/
theorem d_entry (c : Dev nD) (o k : Fin 4096) :
    entD m c (ix2 o k) = argW m c (ix2 o k) - argZ m c (ix2 o 0) := by
  have e : entD m c = truncf (F := Ideal) .bf16 (subf (argW m c)
      (broadcastInDim S4096x4096 ![0, 1] Facts₀.bcast_S4096x1_S4096x4096_0_1 (argZ m c))) Facts₀.bitsLt_bf16_f32 := by
    show StableHlo.after hostOps0 (fun b => m (c, b)) (Proc.devRef .tc main_v4) = _
    after_results
  rw [e]
  show argW m c (ix2 o k)
      - broadcastInDim S4096x4096 ![0, 1] Facts₀.bcast_S4096x1_S4096x4096_0_1 (argZ m c) (ix2 o k) = _
  refine congrArg (argW m c (ix2 o k) - ·) ?_
  exact broadcastInDim_apply _ Facts₀.bcast_S4096x1_S4096x4096_0_1 (argZ m c) (ix2 o k) (ix2 o 0) (fun a => match a with
    | ⟨0, _⟩ => by show o.val = if (4096 : Nat) = 1 then 0 else o.val; rw [if_neg (by decide)]
    | ⟨1, _⟩ => by show 0 = if (1 : Nat) = 1 then 0 else k.val; rw [if_pos rfl])

/-- The scale row: the scale column laid out along the lanes. -/
theorem s_entry (c : Dev nD) (o : Fin 4096) :
    entS m c (ix2 0 o) = argS m c (ix2 o 0) := by
  have e : entS m c = shapeCast S1x4096 (argS m c) Facts₀.shapeCasts_S4096x1_S1x4096 := by
    show StableHlo.after hostOps0 (fun b => m (c, b)) (Proc.devRef .tc main_v5) = _
    after_results
    rfl
  rw [e]
  refine shapeCast_apply (s := S4096x1) (t := S1x4096) _ _ _ _ ?_
  rw [Shape.rowMajor_val_two, Shape.rowMajor_val_two]
  show o.val * 1 + 0 = 0 * 4096 + o.val
  omega

/-- The bias row is the argument itself. -/
theorem b_entry (c : Dev nD) : entB m c = argB m c := V_main_arg4 m c

end Cert.KernelIdeal.Entry

end
-- ==== Proof.SumLaw.lean ====
/-
  The algebra that joins the two programs, over the extended reals and free of either program.

  The kernel multiplies a row of activations with a row of shifted weights block by block, adds the eight
  block products into an accumulator that starts at zero, and only then scales the total by the row's scale.
  The reference scales every weight first and takes one product over the whole contraction axis.  Three facts
  make them equal:
    * a running total that starts at zero is the finite sum of what was added (`chain_eq_sum`);
    * a sum over `n * b` consecutive positions is the sum over `n` blocks of `b` positions (`sum_range_blocks`);
    * a common factor moves across a finite sum of products when every number involved is real
      (`sum_mul_scale`) -- on the extended reals this needs finiteness, since `(+inf + -inf) * s` is not
      `+inf * s + -inf * s`.
-/
import Mathlib.Data.EReal.Inv
import Mathlib.Algebra.BigOperators.Group.Finset.Basic
import Mathlib.Algebra.BigOperators.Fin
import Mathlib.Algebra.BigOperators.Ring.Finset
import Mathlib.Tactic.Ring

open scoped BigOperators

namespace Cert.SumLaw

/-- The coercion of the reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A common real factor moves across a finite sum of products of reals:
    `(∑ aₖ · dₖ) · s = ∑ aₖ · (dₖ · s)`. -/
theorem sum_mul_scale {ι : Type*} (t : Finset ι) (a d : ι → EReal) (s : EReal)
    (ha : ∀ k, ∃ r : ℝ, a k = r) (hd : ∀ k, ∃ r : ℝ, d k = r) (hs : ∃ r : ℝ, s = r) :
    (∑ k ∈ t, a k * d k) * s = ∑ k ∈ t, a k * (d k * s) := by
  choose a' ha using ha
  choose d' hd using hd
  obtain ⟨s', rfl⟩ := hs
  have e1 : ∀ k, a k * d k = ((a' k * d' k : ℝ) : EReal) := fun k => by rw [ha, hd, EReal.coe_mul]
  have e2 : ∀ k, a k * (d k * (s' : EReal)) = ((a' k * (d' k * s') : ℝ) : EReal) := fun k => by
    rw [ha, hd, EReal.coe_mul, EReal.coe_mul]
  simp only [e1, e2]
  rw [← coe_sum, ← coe_sum, ← EReal.coe_mul, Finset.sum_mul]
  exact congrArg _ (Finset.sum_congr rfl fun k _ => by ring)

/-- A running total that starts from zero and adds `g 0`, `g 1`, … in order is the sum of the terms added so far. -/
theorem chain_eq_sum {M : Type*} [AddCommMonoid M] (g c : ℕ → M) (h0 : c 0 = 0 + g 0)
    (hs : ∀ n, c (n + 1) = c n + g (n + 1)) (n : ℕ) : c n = ∑ j ∈ Finset.range (n + 1), g j := by
  induction n with
  | zero => rw [h0, zero_add, Finset.sum_range_one]
  | succ n ih => rw [hs, ih, Finset.sum_range_succ _ (n + 1)]

/-- A sum over `n * b` consecutive positions is the sum over `n` blocks of `b` consecutive positions. -/
theorem sum_range_blocks {M : Type*} [AddCommMonoid M] (f : ℕ → M) (b : ℕ) (n : ℕ) :
    ∑ k ∈ Finset.range (n * b), f k = ∑ j ∈ Finset.range n, ∑ kk ∈ Finset.range b, f (j * b + kk) := by
  induction n with
  | zero => simp
  | succ n ih => rw [Nat.succ_mul, Finset.sum_range_add, ih, Finset.sum_range_succ]

end Cert.SumLaw
-- ==== Proof.Spec.lean ====
/-
  The kernel's result array, stated once, free of the program's text.

  `onNat A r k` reads a rank-2 array of extended reals at a pair of natural numbers (zero outside the array), so
  that positions can be computed with plain arithmetic.  `blockDot X D R O j` is the inner product of row `R` of
  `X` with row `O` of `D` over the `j`-th block of 512 contraction positions.  `tileOut` is what the launch
  leaves in its result array: the eight block products of a row pair added up, times the row's scale, plus its bias.
  `tileOut_apply` says the eight blocks together are the whole contraction axis.
-/
import proofs.«166770_j40303973105954_2_alg».proof.Proof.SumLaw
import Idealize.ShloMosaic.PureOps.Ideal
import Idealize.ShloMosaic.Lib.ValueIdx

noncomputable section

open Idealize.ShloMosaic Idealize.ShloMosaic.ValueIdx
open scoped BigOperators

namespace Cert.Spec

/-- A rank-2 array read at a pair of naturals: its element inside the array, zero outside. -/
def onNat {n0 n1 : ℕ} (A : (⟨2, ![n0, n1]⟩ : Shape).Idx → EReal) (r k : ℕ) : EReal :=
  if h : r < n0 ∧ k < n1 then A (ix2 ⟨r, h.1⟩ ⟨k, h.2⟩) else 0

theorem onNat_val {n0 n1 : ℕ} (A : (⟨2, ![n0, n1]⟩ : Shape).Idx → EReal) (r : Fin n0) (k : Fin n1) :
    onNat A r.val k.val = A (ix2 r k) := dif_pos ⟨r.isLt, k.isLt⟩

theorem onNat_of_lt {n0 n1 : ℕ} (A : (⟨2, ![n0, n1]⟩ : Shape).Idx → EReal) (r k : ℕ) (hr : r < n0) (hk : k < n1) :
    onNat A r k = A (ix2 ⟨r, hr⟩ ⟨k, hk⟩) := dif_pos ⟨hr, hk⟩

/-- The inner product of row `R` of `X` and row `O` of `D` over contraction positions `512 j … 512 j + 511`. -/
def blockDot (X : (⟨2, ![16384, 4096]⟩ : Shape).Idx → EReal) (D : (⟨2, ![4096, 4096]⟩ : Shape).Idx → EReal)
    (R O j : ℕ) : EReal :=
  ∑ kk ∈ Finset.range 512, onNat X R (j * 512 + kk) * onNat D O (j * 512 + kk)

/-- What the launch leaves in its result array at `(R, O)`. -/
def tileOut (X : (⟨2, ![16384, 4096]⟩ : Shape).Idx → EReal) (D : (⟨2, ![4096, 4096]⟩ : Shape).Idx → EReal)
    (S B : (⟨2, ![1, 4096]⟩ : Shape).Idx → EReal) : (⟨2, ![16384, 4096]⟩ : Shape).Idx → EReal := fun i =>
  (∑ j ∈ Finset.range 8, blockDot X D (i 0).val (i 1).val j) * onNat S 0 (i 1).val + onNat B 0 (i 1).val

/-- The eight blocks are the whole contraction axis: the result at `(R, O)` is the full inner product of the two
    rows, times the scale at `O`, plus the bias at `O`. -/
theorem tileOut_apply (X : (⟨2, ![16384, 4096]⟩ : Shape).Idx → EReal) (D : (⟨2, ![4096, 4096]⟩ : Shape).Idx → EReal)
    (S B : (⟨2, ![1, 4096]⟩ : Shape).Idx → EReal) (R : Fin 16384) (O : Fin 4096) :
    tileOut X D S B (ix2 R O) = (∑ k : Fin 4096, X (ix2 R k) * D (ix2 O k)) * S (ix2 0 O) + B (ix2 0 O) := by
  unfold tileOut blockDot
  show (∑ j ∈ Finset.range 8, ∑ kk ∈ Finset.range 512, onNat X R.val (j * 512 + kk) * onNat D O.val (j * 512 + kk))
      * onNat S 0 O.val + onNat B 0 O.val = _
  rw [← Cert.SumLaw.sum_range_blocks (fun k => onNat X R.val k * onNat D O.val k) 512 8,
    ← Fin.sum_univ_eq_sum_range (fun k => onNat X R.val k * onNat D O.val k) (8 * 512)]
  have hS : onNat S 0 O.val = S (ix2 0 O) := onNat_val S 0 O
  have hB : onNat B 0 O.val = B (ix2 0 O) := onNat_val B 0 O
  rw [hS, hB]
  refine congrArg (fun z => z * S (ix2 0 O) + B (ix2 0 O)) ?_
  exact Finset.sum_congr rfl fun k _ => by rw [onNat_val X R k, onNat_val D O k]

end Cert.Spec

end
-- ==== Proof.Accum.lean ====
/-
  What the accumulator and the output tile hold after each grid point.

  Grid point `n` (of 16 · 4 · 8, the contraction axis innermost) works on row tile `n / 32`, column tile
  `n / 8 % 4` and contraction block `n % 8`.  Its activation block is rows `1024 (n / 32) …` and positions
  `512 (n % 8) …` of the launch's activation array, its weight block rows `1024 (n / 8 % 4) …` and the same
  positions of the shifted weights.  By induction along the grid the accumulator after point `n` holds, at
  `(p, q)`, the sum of the first `n % 8 + 1` block products of those two rows: it restarts from zero whenever
  `n % 8 = 0` and otherwise adds one block to what the point before left.  At the last block (`n % 8 = 7`) the
  output tile is that sum of all eight blocks, times the scale, plus the bias.
-/
import proofs.«166770_j40303973105954_2_alg».proof.Proof.Pieces
import proofs.«166770_j40303973105954_2_alg».proof.Proof.PayAt
import proofs.«166770_j40303973105954_2_alg».proof.Proof.Entry
import proofs.«166770_j40303973105954_2_alg».proof.Proof.Spec

set_option maxRecDepth 16384

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.KernelIdeal.Entry Cert.Spec

variable (m : (ℓ : Loc nD τ sig) → Buf (Elt Ideal) ℓ)

/-- The printed index maps over the grid: which block of each array a point works on. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- The activation block of a point, element by element. -/
theorem xblk_apply (c : Dev nD) (t : Fin cfg0.N) (p : Fin 1024) (k : Fin 512) :
    (iblk m c 0 t : Vec Ideal S1024x512 .bf16) (ix2 p k)
      = onNat (entX m c) (t.val / 32 * 1024 + p.val) (t.val % 8 * 512 + k.val) := by
  obtain ⟨e0, e1, -⟩ := idx_facts t
  have hN : t.val < 512 := lt_of_lt_of_eq t.isLt N_0
  rw [onNat_of_lt _ _ _ (by omega) (by omega)]
  unfold iblk
  rw [View.read_apply]
  show V m c main_v1 _ = V m c main_v1 _
  congr 1
  funext a
  apply Fin.ext
  match a with
  | ⟨0, _⟩ => show win0_0.index t (0 : Fin 2) * 1024 + 1 * p.val = t.val / 32 * 1024 + p.val; rw [e0]; omega
  | ⟨1, _⟩ => show win0_0.index t (1 : Fin 2) * 512 + 1 * k.val = t.val % 8 * 512 + k.val; rw [e1]; omega

/-- The weight block of a point, element by element. -/
theorem dblk_apply (c : Dev nD) (t : Fin cfg0.N) (q : Fin 1024) (k : Fin 512) :
    (iblk m c 1 t : Vec Ideal S1024x512 .bf16) (ix2 q k)
      = onNat (entD m c) (t.val / 8 % 4 * 1024 + q.val) (t.val % 8 * 512 + k.val) := by
  obtain ⟨-, -, e0, e1, -⟩ := idx_facts t
  have hN : t.val < 512 := lt_of_lt_of_eq t.isLt N_0
  rw [onNat_of_lt _ _ _ (by omega) (by omega)]
  unfold iblk
  rw [View.read_apply]
  show V m c main_v4 _ = V m c main_v4 _
  congr 1
  funext a
  apply Fin.ext
  match a with
  | ⟨0, _⟩ => show win0_1.index t (0 : Fin 2) * 1024 + 1 * q.val = t.val / 8 % 4 * 1024 + q.val; rw [e0]; omega
  | ⟨1, _⟩ => show win0_1.index t (1 : Fin 2) * 512 + 1 * k.val = t.val % 8 * 512 + k.val; rw [e1]; omega

/-- The scale block of a point. -/
theorem sblk_apply (c : Dev nD) (t : Fin cfg0.N) (q : Fin 1024) :
    (iblk m c 2 t : Vec Ideal S1x1024 .f32) (ix2 0 q) = onNat (entS m c) 0 (t.val / 8 % 4 * 1024 + q.val) := by
  obtain ⟨-, -, -, -, e0, e1, -⟩ := idx_facts t
  have hN : t.val < 512 := lt_of_lt_of_eq t.isLt N_0
  rw [onNat_of_lt _ _ _ (by omega) (by omega)]
  unfold iblk
  rw [View.read_apply]
  show V m c main_v5 _ = V m c main_v5 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = t.val / 8 % 4 * 1024 + q.val; rw [e1]; omega

/-- The bias block of a point. -/
theorem bblk_apply (c : Dev nD) (t : Fin cfg0.N) (q : Fin 1024) :
    (iblk m c 3 t : Vec Ideal S1x1024 .f32) (ix2 0 q) = onNat (entB m c) 0 (t.val / 8 % 4 * 1024 + q.val) := by
  obtain ⟨-, -, -, -, -, -, e0, e1, -⟩ := idx_facts t
  have hN : t.val < 512 := lt_of_lt_of_eq t.isLt N_0
  rw [onNat_of_lt _ _ _ (by omega) (by omega)]
  unfold iblk
  rw [View.read_apply]
  show V m c main_arg4 _ = V m c main_arg4 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * q.val = t.val / 8 % 4 * 1024 + q.val; rw [e1]; omega

/-- A point's activation block and weight block, as tiles of extended reals. -/
abbrev xblk (c : Dev nD) (t : Fin cfg0.N) : FVec Ideal S1024x512 .bf16 := iblk m c 0 t
abbrev dblk (c : Dev nD) (t : Fin cfg0.N) : FVec Ideal S1024x512 .bf16 := iblk m c 1 t

/-- One point's tile product at `(p, q)` is one block of the two rows' inner product. -/
theorem block_product (c : Dev nD) (t : Fin cfg0.N) (p q : Fin 1024) :
    ∑ k : Fin 512, xblk m c t (ix2 p k) * dblk m c t (ix2 q k)
      = blockDot (entX m c) (entD m c) (t.val / 32 * 1024 + p.val) (t.val / 8 % 4 * 1024 + q.val) (t.val % 8) := by
  unfold blockDot
  rw [← Fin.sum_univ_eq_sum_range (fun kk => onNat (entX m c) (t.val / 32 * 1024 + p.val) (t.val % 8 * 512 + kk)
    * onNat (entD m c) (t.val / 8 % 4 * 1024 + q.val) (t.val % 8 * 512 + kk)) 512]
  exact Finset.sum_congr rfl fun k _ => congrArg₂ (· * ·) (xblk_apply m c t p k) (dblk_apply m c t q k)

/-- THE ACCUMULATOR after point `n`, at `(p, q)`: the first `n % 8 + 1` block products of the point's two rows. -/
theorem acc_eq (c : Dev nD) : ∀ (n : ℕ) (h : n < cfg0.N) (p q : Fin 1024),
    ((outsAt0 m c n h).2 : Vec Ideal S1024x1024 .f32) (ix2 p q)
      = ∑ j ∈ Finset.range (n % 8 + 1), blockDot (entX m c) (entD m c) (n / 32 * 1024 + p.val) (n / 8 % 4 * 1024 + q.val) j := by
  intro n
  induction n using Nat.strong_induction_on with
  | _ n ih =>
    intro h p q
    have hN : n < 512 := lt_of_lt_of_eq h N_0
    by_cases h0 : n % 8 = 0
    · have h1 : ¬ n % 8 = 7 := by omega
      rw [outsAt0_A m c ⟨n, h⟩ h0 h1]
      dsimp only
      rw [Pieces.scratch_A, PayAt.pay2_apply, PayAt.pay1_apply, zero_add, block_product m c ⟨n, h⟩ p q, h0,
        Finset.sum_range_one]
    · have hprev : n - 1 < n := by omega
      have e1 : (n - 1) / 32 = n / 32 := by omega
      have e2 : (n - 1) / 8 % 4 = n / 8 % 4 := by omega
      have e3 : (n - 1) % 8 + 1 = n % 8 := by omega
      by_cases h1 : n % 8 = 7
      · rw [outsAt0_C m c ⟨n, h⟩ h0 h1]
        dsimp only
        rw [Pieces.scratch_C, PayAt.pay2_apply, ih (n - 1) hprev, e1, e2, e3, block_product m c ⟨n, h⟩ p q,
          Finset.sum_range_succ]
      · rw [outsAt0_B m c ⟨n, h⟩ h0 h1]
        dsimp only
        rw [Pieces.scratch_B, PayAt.pay2_apply, ih (n - 1) hprev, e1, e2, e3, block_product m c ⟨n, h⟩ p q,
          Finset.sum_range_succ]

/-- THE OUTPUT TILE after the last contraction block, at `(p, q)`: all eight block products, scaled, plus the bias. -/
theorem out_eq (c : Dev nD) (t : Fin cfg0.N) (h7 : t.val % 8 = 7) (p q : Fin 1024) :
    ((outsAt0 m c t.val t.isLt).1 : Vec Ideal S1024x1024 .f32) (ix2 p q)
      = (∑ j ∈ Finset.range 8, blockDot (entX m c) (entD m c) (t.val / 32 * 1024 + p.val) (t.val / 8 % 4 * 1024 + q.val) j)
          * onNat (entS m c) 0 (t.val / 8 % 4 * 1024 + q.val) + onNat (entB m c) 0 (t.val / 8 % 4 * 1024 + q.val) := by
  have h0 : ¬ t.val % 8 = 0 := by omega
  have hacc := acc_eq m c t.val t.isLt p q
  rw [outsAt0_C m c t h0 h7] at hacc ⊢
  dsimp only at hacc ⊢
  rw [Pieces.scratch_C] at hacc
  rw [Pieces.out_C, PayAt.pay3_apply, hacc, h7, sblk_apply, bblk_apply]

end Cert.KernelIdeal.Accum

end
-- ==== Proof.Result.lean ====
/-
  The common value of the two programs, as one function of the five arguments:

      out[b, s, o] = (∑ₖ x[b, s, k] · (w[o, k] − zp[o, 0])) · scales[o, 0] + bias[0, o].

  This is the form the kernel computes (scale applied once, after the contraction).  `scaled_inside` is the
  reference's form (every shifted weight scaled before the contraction); the two agree when the activations,
  weights, zero points and scales are real numbers.
-/
import proofs.«166770_j40303973105954_2_alg».proof.Proof.SumLaw
import Idealize.ShloMosaic.PureOps.Ideal
import Idealize.ShloMosaic.Lib.ValueIdx

noncomputable section

open Idealize.ShloMosaic Idealize.ShloMosaic.ValueIdx
open scoped BigOperators

namespace Cert.Result

/-- The result at batch `b`, sequence position `s`, output feature `o`. -/
def resultAt (x : (⟨3, ![8, 2048, 4096]⟩ : Shape).Idx → EReal) (w : (⟨2, ![4096, 4096]⟩ : Shape).Idx → EReal)
    (sc zp : (⟨2, ![4096, 1]⟩ : Shape).Idx → EReal) (bias : (⟨2, ![1, 4096]⟩ : Shape).Idx → EReal)
    (b : Fin 8) (s : Fin 2048) (o : Fin 4096) : EReal :=
  (∑ k : Fin 4096, x (ix3 b s k) * (w (ix2 o k) - zp (ix2 o 0))) * sc (ix2 o 0) + bias (ix2 0 o)

/-- The result array. -/
def resultOf (x : (⟨3, ![8, 2048, 4096]⟩ : Shape).Idx → EReal) (w : (⟨2, ![4096, 4096]⟩ : Shape).Idx → EReal)
    (sc zp : (⟨2, ![4096, 1]⟩ : Shape).Idx → EReal) (bias : (⟨2, ![1, 4096]⟩ : Shape).Idx → EReal) :
    (⟨3, ![8, 2048, 4096]⟩ : Shape).Idx → EReal := fun i =>
  resultAt x w sc zp bias ⟨(i 0).val, (i 0).isLt⟩ ⟨(i 1).val, (i 1).isLt⟩ ⟨(i 2).val, (i 2).isLt⟩

theorem resultOf_ix3 (x : (⟨3, ![8, 2048, 4096]⟩ : Shape).Idx → EReal) (w : (⟨2, ![4096, 4096]⟩ : Shape).Idx → EReal)
    (sc zp : (⟨2, ![4096, 1]⟩ : Shape).Idx → EReal) (bias : (⟨2, ![1, 4096]⟩ : Shape).Idx → EReal)
    (b : Fin 8) (s : Fin 2048) (o : Fin 4096) :
    resultOf x w sc zp bias (ix3 b s o) = resultAt x w sc zp bias b s o := rfl

/-- Scaling every shifted weight before the contraction gives the same result, over real arguments. -/
theorem scaled_inside (x : (⟨3, ![8, 2048, 4096]⟩ : Shape).Idx → EReal) (w : (⟨2, ![4096, 4096]⟩ : Shape).Idx → EReal)
    (sc zp : (⟨2, ![4096, 1]⟩ : Shape).Idx → EReal) (bias : (⟨2, ![1, 4096]⟩ : Shape).Idx → EReal)
    (hx : ∀ i, ∃ r : ℝ, x i = r) (hw : ∀ i, ∃ r : ℝ, w i = r) (hs : ∀ i, ∃ r : ℝ, sc i = r) (hz : ∀ i, ∃ r : ℝ, zp i = r)
    (b : Fin 8) (s : Fin 2048) (o : Fin 4096) :
    (∑ k : Fin 4096, x (ix3 b s k) * ((w (ix2 o k) - zp (ix2 o 0)) * sc (ix2 o 0))) + bias (ix2 0 o)
      = resultAt x w sc zp bias b s o := by
  unfold resultAt
  refine congrArg (· + bias (ix2 0 o)) ?_
  refine (Cert.SumLaw.sum_mul_scale Finset.univ (fun k => x (ix3 b s k)) (fun k => w (ix2 o k) - zp (ix2 o 0)) (sc (ix2 o 0))
    (fun k => hx _) (fun k => ?_) (hs _)).symm
  obtain ⟨rw', hrw⟩ := hw (ix2 o k)
  obtain ⟨rz, hrz⟩ := hz (ix2 o 0)
  exact ⟨rw' - rz, by rw [hrw, hrz, EReal.coe_sub]⟩

end Cert.Result

end
-- ==== Proof.KernelRun.lean ====
/-
  The idealized kernel's run ends with the common value in its result.

  Each output tile is written back once, at the last contraction block of its grid row/column pair, holding
  `tileOut` on the tile's rectangle; the 16 × 4 tiles cover the launch's result array, so the array ends at
  `tileOut` of the arrays the launch found.  The host then regroups the 16384 rows as 8 × 2048.  Read through
  the arrays the launch found (the flattened activations, the shifted weights, the scale row, the bias), that is the
  common value `resultOf` of the five arguments.
-/
import proofs.«166770_j40303973105954_2_alg».proof.Proof.Accum
import proofs.«166770_j40303973105954_2_alg».proof.Proof.Result
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx
open Idealize.ShloMosaic.Pipeline (Dat)
open scoped BigOperators

namespace Cert.KernelIdeal.KernelRun

open Cert.KernelIdeal Cert.KernelIdeal.Gen Cert.KernelIdeal.Entry Cert.KernelIdeal.Accum Cert.Spec Cert.Result

variable (m : (ℓ : Loc nD τ sig) → Buf (Elt Ideal) ℓ) (ρ : Dev nD → PrngReg)

/-- What the launch leaves in its result array. -/
abbrev launchOut (c : Dev nD) : FVec Ideal S16384x4096 .f32 := tileOut (entX m c) (entD m c) (entS m c) (entB m c)

/-- WHAT A POINT WRITES BACK (only the last contraction block of a tile does): the tile's rectangle of `launchOut`. -/
theorem flushed_eq (c : Dev nD) (t : Fin cfg0.N) (hf : (cfg0.win 4).flush t = true) :
    (dats m 0 c).flushed 4 t = ((cfg0.win 4).blk t).view.read (Elt Ideal) (launchOut m c) := by
  have h7 : t.val % 8 = 7 := (flush0_4 t).mp hf
  obtain ⟨-, -, -, -, -, -, -, -, e0, e1⟩ := idx_facts t
  show (cfg0.win 4).cut (grid0.coords t) ((dats m 0 c).after 4 t) = _
  rw [after0_4]
  funext y
  obtain ⟨p, q, rfl⟩ : ∃ (p q : Fin 1024), y = ix2 p q := ⟨y 0, y 1, eq_ix2 y⟩
  show ((outsAt0 m c t.val t.isLt).1 : Vec Ideal S1024x1024 .f32) (ix2 p q)
      = (∑ j ∈ Finset.range 8, blockDot (entX m c) (entD m c) (win0_4.index t (0 : Fin 2) * 1024 + 1 * p.val)
            (win0_4.index t (1 : Fin 2) * 1024 + 1 * q.val) j)
          * onNat (entS m c) 0 (win0_4.index t (1 : Fin 2) * 1024 + 1 * q.val)
        + onNat (entB m c) 0 (win0_4.index t (1 : Fin 2) * 1024 + 1 * q.val)
  rw [out_eq m c t h7 p q, e0, e1, one_mul, one_mul]

/-- An index of the result array is in a point's tile iff each coordinate is in the tile's range. -/
theorem mem_tile (t : Fin cfg0.N) (i : S16384x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v6).slice (win0_4.rect t)).set ↔ _
  rw [View.set_slice_whole, Rect.mem_set_unit]
  exact Iff.rfl

/-- Every index of the result array lies in the tile of a point that writes back: row tile `i₀ / 1024`, column tile
    `i₁ / 1024`, last contraction block. -/
theorem covered (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 512 := N_0
  refine ⟨⟨(i 0).val / 1024 * 32 + (i 1).val / 1024 * 8 + 7, by rw [hN]; omega⟩, ?_, ?_⟩
  · exact (flush0_4 _).mpr (by show ((i 0).val / 1024 * 32 + (i 1).val / 1024 * 8 + 7) % 8 = 7; omega)
  · obtain ⟨-, -, -, -, -, -, -, -, e0, e1⟩ := idx_facts ⟨(i 0).val / 1024 * 32 + (i 1).val / 1024 * 8 + 7, by rw [hN]; omega⟩
    rw [mem_tile]
    intro a
    match a with
    | ⟨0, _⟩ =>
      show win0_4.index _ (0 : Fin 2) * 1024 ≤ (i 0).val ∧ (i 0).val < win0_4.index _ (0 : Fin 2) * 1024 + 1024
      rw [e0]
      show ((i 0).val / 1024 * 32 + (i 1).val / 1024 * 8 + 7) / 32 * 1024 ≤ (i 0).val
        ∧ (i 0).val < ((i 0).val / 1024 * 32 + (i 1).val / 1024 * 8 + 7) / 32 * 1024 + 1024
      omega
    | ⟨1, _⟩ =>
      show win0_4.index _ (1 : Fin 2) * 1024 ≤ (i 1).val ∧ (i 1).val < win0_4.index _ (1 : Fin 2) * 1024 + 1024
      rw [e1]
      show ((i 0).val / 1024 * 32 + (i 1).val / 1024 * 8 + 7) / 8 % 4 * 1024 ≤ (i 1).val
        ∧ (i 1).val < ((i 0).val / 1024 * 32 + (i 1).val / 1024 * 8 + 7) / 8 % 4 * 1024 + 1024
      omega

/-- THE LAUNCH'S RESULT ARRAY after the run. -/
theorem final (c : Dev nD) : (dats m 0 c).arrAt 4 cfg0.N = launchOut m c :=
  (dats m 0 c).arrAt_eq_of_cover 4 (launchOut m c) (flushed_eq m c) covered

/-- The same, as the host operations after the launch find it. -/
theorem launch_array (c : Dev nD) :
    Pipeline.withArrays spec0 c (V0 m c) (fun w => (dats m 0 c).arrAt w cfg0.N) (Proc.devRef .tc main_v6) = launchOut m c :=
  (Pipeline.withArrays_arr spec0 launch0.win.arr_inj c _ _ 4).trans (final m c)

/-- The program's result: the launch's array with its rows regrouped. -/
theorem tail_eq (c : Dev nD) :
    Pipeline.afterTail₀ cfgs (dats m) 0 (V0 m) [hostOps1] c main_v7
      = shapeCast S8x2048x4096 (launchOut m c) Facts₀.shapeCasts_S16384x4096_S8x2048x4096 := by
  unfold Pipeline.afterTail₀
  show StableHlo.after hostOps1 _ (Proc.devRef .tc main_v7) = _
  after_results
  exact congrArg (fun A : FVec Ideal S16384x4096 .f32 => shapeCast S8x2048x4096 A Facts₀.shapeCasts_S16384x4096_S8x2048x4096)
    (launch_array m c)

/-- Row `2048 b + s` of the flattened activations is row `s` of batch `b`. -/
theorem x_row (c : Dev nD) (b : Fin 8) (s : Fin 2048) (k : Fin 4096) (hR : b.val * 2048 + s.val < 16384) :
    entX m c (ix2 ⟨b.val * 2048 + s.val, hR⟩ k) = argX m c (ix3 b s k) := by
  rw [x_entry]
  refine congrArg (argX m c) (funext fun a => ?_)
  match a with
  | ⟨0, _⟩ => exact Fin.ext (by show (b.val * 2048 + s.val) / 2048 = b.val; have := s.isLt; omega)
  | ⟨1, _⟩ => exact Fin.ext (by show (b.val * 2048 + s.val) % 2048 = s.val; have := s.isLt; omega)
  | ⟨2, _⟩ => rfl

/-- THE KERNEL'S RESULT IS THE COMMON VALUE of the five arguments. -/
theorem result_eq (c : Dev nD) :
    shapeCast S8x2048x4096 (launchOut m c) Facts₀.shapeCasts_S16384x4096_S8x2048x4096
      = resultOf (argX m c) (argW m c) (argS m c) (argZ m c) (argB m c) := by
  funext i
  obtain ⟨b, s, o, rfl⟩ : ∃ (b : Fin 8) (s : Fin 2048) (o : Fin 4096), i = ix3 b s o := ⟨i 0, i 1, i 2, eq_ix3 i⟩
  have hR : b.val * 2048 + s.val < 16384 := by have := b.isLt; have := s.isLt; omega
  rw [shapeCast_apply (s := S16384x4096) (t := S8x2048x4096) (launchOut m c) _ (ix3 b s o) (ix2 ⟨b.val * 2048 + s.val, hR⟩ o)
    (by rw [Shape.rowMajor_val_two, Shape.rowMajor_val_three]; rfl)]
  show tileOut (entX m c) (entD m c) (entS m c) (entB m c) (ix2 ⟨b.val * 2048 + s.val, hR⟩ o) = _
  rw [tileOut_apply, resultOf_ix3, s_entry, b_entry]
  unfold resultAt
  refine congrArg (fun z => z * argS m c (ix2 o 0) + argB m c (ix2 0 o)) (Finset.sum_congr rfl fun k _ => ?_)
  rw [x_row, d_entry]

/-- THE RUN of the idealized kernel: it terminates with the common value in its result and its arguments unchanged. -/
theorem run : θ_run defs (onTc (τ := τ) (main (F := Ideal))) ⟨m, fun _ => 0, ρ⟩ fun r => ∀ c : Dev nD,
      r.2.mem ((c.tc : Thread nD τ).loc main_v7) = resultOf (argX m c) (argW m c) (argS m c) (argZ m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.KernelIdeal.KernelRun

end
-- ==== Proof.RefSide.lean ====
/-
  The reference's result is the common value.

  Read one element at a time, the reference subtracts the zero point from each weight, scales it, contracts with
  the activations over the whole feature axis, and adds the bias: at `(b, s, o)` it is
  `(∑ₖ x[b, s, k] · ((w[o, k] − zp[o, 0]) · scales[o, 0])) + bias[0, o]`.  Over real arguments this is the
  common value (the scale moves across the sum).
-/
import proofs.«166770_j40303973105954_2_alg».proof.Proof.Gen.ReferenceIdeal.Read
import proofs.«166770_j40303973105954_2_alg».proof.Proof.Result

noncomputable section

open Idealize.ShloMosaic Idealize.ShloMosaic.ValueIdx
open scoped BigOperators

namespace Cert.ReferenceIdeal.RefValue

open Cert.ReferenceIdeal Cert.ReferenceIdeal.Read Cert.Result

/-! Where each operation of the reference reads its operands, in coordinates. -/

theorem lidx_eq (b : Fin 8) (s : Fin 2048) (o k : Fin 4096) : lidx_main_v4 (ix3 b s o) k = ix3 b s k :=
  funext fun a => Fin.ext (by match a with | ⟨0, _⟩ => rfl | ⟨1, _⟩ => rfl | ⟨2, _⟩ => rfl)
theorem ridx_eq (b : Fin 8) (s : Fin 2048) (o k : Fin 4096) : ridx_main_v4 (ix3 b s o) k = ix2 o k :=
  funext fun a => Fin.ext (by match a with | ⟨0, _⟩ => rfl | ⟨1, _⟩ => rfl)
theorem zidx_eq (o k : Fin 4096) : idx_main_v0 (ix2 o k) = ix2 o 0 :=
  funext fun a => Fin.ext (by match a with | ⟨0, _⟩ => rfl | ⟨1, _⟩ => rfl)
theorem sidx_eq (o k : Fin 4096) : idx_main_v2 (ix2 o k) = ix2 o 0 :=
  funext fun a => Fin.ext (by match a with | ⟨0, _⟩ => rfl | ⟨1, _⟩ => rfl)
theorem bidx_eq (b : Fin 8) (s : Fin 2048) (o : Fin 4096) : idx_main_v5 (idx_main_v6 (ix3 b s o)) = ix2 0 o :=
  funext fun a => Fin.ext (by match a with | ⟨0, _⟩ => rfl | ⟨1, _⟩ => rfl)

/-- The reference's result at `(b, s, o)`. -/
theorem ref_apply (x0 : FVec Ideal S8x2048x4096 .f32) (x1 : FVec Ideal S4096x4096 .f32) (x2 x3 : FVec Ideal S4096x1 .f32)
    (x4 : FVec Ideal S1x4096 .f32) (b : Fin 8) (s : Fin 2048) (o : Fin 4096) :
    val_main_v7 (F := Ideal) x0 x1 x2 x3 x4 (ix3 b s o)
      = (∑ k : Fin 4096, x0 (ix3 b s k) * ((x1 (ix2 o k) - x3 (ix2 o 0)) * x2 (ix2 o 0))) + x4 (ix2 0 o) := by
  rw [val_main_v7_apply, val_main_v4_apply, val_main_v6_apply, val_main_v5_apply, bidx_eq]
  simp only [val_main_v3_apply, val_main_v1_apply, val_main_v0_apply, val_main_v2_apply, lidx_eq, ridx_eq, zidx_eq, sidx_eq]
  rfl

/-- THE REFERENCE IS THE COMMON VALUE, over real arguments. -/
theorem ref_eq_result (x0 : FVec Ideal S8x2048x4096 .f32) (x1 : FVec Ideal S4096x4096 .f32) (x2 x3 : FVec Ideal S4096x1 .f32)
    (x4 : FVec Ideal S1x4096 .f32)
    (h0 : ∀ i, ∃ r : ℝ, x0 i = r) (h1 : ∀ i, ∃ r : ℝ, x1 i = r) (h2 : ∀ i, ∃ r : ℝ, x2 i = r) (h3 : ∀ i, ∃ r : ℝ, x3 i = r) :
    val_main_v7 (F := Ideal) x0 x1 x2 x3 x4 = resultOf x0 x1 x2 x3 x4 := by
  funext i
  obtain ⟨b, s, o, rfl⟩ : ∃ (b : Fin 8) (s : Fin 2048) (o : Fin 4096), i = ix3 b s o := ⟨i 0, i 1, i 2, eq_ix3 i⟩
  rw [ref_apply, resultOf_ix3]
  exact scaled_inside x0 x1 x2 x3 x4 h0 h1 h2 h3 b s o

end Cert.ReferenceIdeal.RefValue

end
-- ==== Proof.Finite.lean ====
/-
  What the precondition says: every entry of every argument is a real number.

  The precondition is the conjunction of five tests `all(|a| < +inf)`, one per argument.  On the extended reals
  `|a| = max a (−a)`, and `max a (−a) < +inf` rules out both infinities, so the entry is the image of a real.
-/
import proofs.«166770_j40303973105954_2_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx

namespace Cert.Finite

open Cert.Pre_finite_inputs

/-- An extended real whose absolute value is below `+inf` is a real number. -/
theorem real_of_lt_inf (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  unfold Ideal.cmp at h
  induction x using EReal.rec with
  | bot => simp at h
  | coe r => exact ⟨r, rfl⟩
  | top => simp at h

/-- The scalar shape has one index. -/
instance : Subsingleton S_.Idx := ⟨fun a b => funext fun d => d.elim0⟩

/-- One argument's test: if `all(|a| < +inf)` came out true, every entry of `a` is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a)
          (broadcastInDim s ![] hb (constant (F := Ideal) S_ .f32 0x7F800000#32))) (constantI S_ 1 1#1) hr hu ix0 = 1#1)
    (i : s.Idx) : ∃ r : ℝ, a i = r :=
  real_of_lt_inf (a i) (Host.reduce_andi_all _ _ hr hu ix0 e i)

/-- THE PRECONDITION READ BACK: all five arguments hold real numbers only. -/
theorem real_args (a0 : FVec Ideal S8x2048x4096 .f32) (a1 : FVec Ideal S4096x4096 .f32) (a2 a3 : FVec Ideal S4096x1 .f32)
    (a4 : FVec Ideal S1x4096 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h0 := congrFun h ix0
  dsimp only [fn, fn_part1] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨real_of_all a0 _ _ _ e0, real_of_all a1 _ _ _ e1, real_of_all a2 _ _ _ e2, real_of_all a3 _ _ _ e3,
    real_of_all a4 _ _ _ e4⟩

end Cert.Finite

end
-- ==== Proof.lean ====
/-
  The certificate of an int8-weight linear layer: `out = x · ((w − zp) · scales)ᵀ + bias`.

  The kernel flattens the activations to 16384 rows, shifts the weights by their zero points on the host, and runs a
  tiled matrix product (1024 × 1024 output tiles, the 4096-long contraction axis in eight blocks of 512 accumulated
  in a scratch tile that restarts at each tile's first block); at a tile's last block it multiplies the total by the
  row's scale and adds the bias.  The reference scales the shifted weights first and contracts once.

  Over the extended reals both are
      out[b, s, o] = (∑ₖ x[b, s, k] · (w[o, k] − zp[o, 0])) · scales[o, 0] + bias[0, o]
  provided the arguments are finite: the running total is the sum of the eight block products, the eight blocks are
  the whole axis, and the scale moves across the sum of real products.  Finiteness is exactly what the
  precondition states, and it is used for that last step only.

  The three frames are the generated frame theorems (the reference's is its generated run with the value dropped);
  the idealization rewrote nothing, so `preserves` is trivial.
-/
import proofs.«166770_j40303973105954_2_alg».proof.Defs
import proofs.«166770_j40303973105954_2_alg».proof.Proof.Gen.Kernel
import proofs.«166770_j40303973105954_2_alg».proof.Proof.Gen.Kernel.Skeleton
import proofs.«166770_j40303973105954_2_alg».proof.Proof.Gen.Kernel.Launch
import proofs.«166770_j40303973105954_2_alg».proof.Proof.Gen.Kernel.Points
import proofs.«166770_j40303973105954_2_alg».proof.Proof.Gen.Kernel.Frame
import proofs.«166770_j40303973105954_2_alg».proof.Proof.Gen.KernelIdeal
import proofs.«166770_j40303973105954_2_alg».proof.Proof.Gen.KernelIdeal.Skeleton
import proofs.«166770_j40303973105954_2_alg».proof.Proof.Gen.KernelIdeal.Launch
import proofs.«166770_j40303973105954_2_alg».proof.Proof.Gen.KernelIdeal.Points
import proofs.«166770_j40303973105954_2_alg».proof.Proof.Gen.KernelIdeal.Frame
import proofs.«166770_j40303973105954_2_alg».proof.Proof.Gen.ReferenceIdeal
import proofs.«166770_j40303973105954_2_alg».proof.Proof.Gen.Pre_finite_inputs
import proofs.«166770_j40303973105954_2_alg».proof.Proof.Gen.ReferenceIdeal.Run
import proofs.«166770_j40303973105954_2_alg».proof.Proof.Gen.ReferenceIdeal.Read
import proofs.«166770_j40303973105954_2_alg».proof.Proof.KernelRun
import proofs.«166770_j40303973105954_2_alg».proof.Proof.RefSide
import proofs.«166770_j40303973105954_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common value of the kernel's arguments: the kernel by its run read back, the
    reference by its run read back at arguments that agree and, by the precondition, are real numbers. -/
theorem algebraic : Cert.algebraic_KernelIdeal_ReferenceIdeal := by
  intro m ρ m' ρ' hpre hagree
  refine ⟨fun c => Cert.Result.resultOf (Cert.KernelIdeal.Entry.argX m c) (Cert.KernelIdeal.Entry.argW m c)
      (Cert.KernelIdeal.Entry.argS m c) (Cert.KernelIdeal.Entry.argZ m c) (Cert.KernelIdeal.Entry.argB m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, -⟩ := Cert.Finite.real_args _ _ _ _ _ (hpre c)
  rw [(hagree c).1, (hagree c).2.1, (hagree c).2.2.1, (hagree c).2.2.2.1, (hagree c).2.2.2.2]
  exact (Cert.ReferenceIdeal.Read.val_main_v7_eq _ _ _ _ _).trans
    (Cert.ReferenceIdeal.RefValue.ref_eq_result _ _ _ _ _ f0 f1 f2 f3)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
